-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x512 : Shape := ⟨3, ![4, 256, 512]⟩
abbrev S4x65x512 : Shape := ⟨3, ![4, 65, 512]⟩
abbrev S1024x1024 : Shape := ⟨2, ![1024, 1024]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S4x65x512 : S_.BroadcastsInDim S4x65x512 (![] : Fin 0 → Fin S4x65x512.rank)
  reducesTo_S4x65x512_S_d0_1_2 : S4x65x512.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x256x512 .f32) (main_arg1 : FVec F S4x65x512 .f32) (main_arg2 : FVec F S1024x1024 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x65x512 .f32 := Host.absf main_arg1
  let main_cst_0 : FVec F S_ .f32 := constant S_ .f32 0x7F800000#32
  let main_v5 : FVec F S4x65x512 .f32 := broadcastInDim S4x65x512 ![] bcast_S_S4x65x512 main_cst_0
  let main_v6 : IVec S4x65x512 1 := cmpf .olt main_v4 main_v5
  let main_c_1 : IVec S_ 1 := constantI S_ 1 1#1
  let main_v7 : IVec S_ 1 := (fun x v => Host.reduce IntOp.andi x v reducesTo_S4x65x512_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4x256x512 : Shape := ⟨3, ![4, 256, 512]⟩
abbrev S4x65x512 : Shape := ⟨3, ![4, 65, 512]⟩
abbrev S1024x1024 : Shape := ⟨2, ![1024, 1024]⟩
abbrev S1024x512 : Shape := ⟨2, ![1024, 512]⟩
abbrev S4x256x65x1024 : Shape := ⟨4, ![4, 256, 65, 1024]⟩
abbrev S1x32x512 : Shape := ⟨3, ![1, 32, 512]⟩
abbrev S1x65x512 : Shape := ⟨3, ![1, 65, 512]⟩
abbrev S1x32x65x1024 : Shape := ⟨4, ![1, 32, 65, 1024]⟩
abbrev S32x512 : Shape := ⟨2, ![32, 512]⟩
abbrev S65x512 : Shape := ⟨2, ![65, 512]⟩
abbrev S32x1024 : Shape := ⟨2, ![32, 1024]⟩
abbrev S65x1024 : Shape := ⟨2, ![65, 1024]⟩
abbrev S32x1x1024 : Shape := ⟨3, ![32, 1, 1024]⟩
abbrev S1x65x1024 : Shape := ⟨3, ![1, 65, 1024]⟩
abbrev S32x65x1024 : Shape := ⟨3, ![32, 65, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x256x512, .f32⟩
  | .hbm, ⟨1, _⟩ => ⟨S4x65x512, .f32⟩
  | .hbm, ⟨2, _⟩ => ⟨S1024x1024, .f32⟩
  | .hbm, ⟨3, _⟩ => ⟨S1024x512, .f32⟩
  | .hbm, ⟨4, _⟩ => ⟨S1024x512, .bf16⟩
  | .hbm, ⟨5, _⟩ => ⟨S1024x512, .f32⟩
  | .hbm, ⟨6, _⟩ => ⟨S1024x512, .bf16⟩
  | .hbm, ⟨7, _⟩ => ⟨S4x256x65x1024, .f32⟩
  | .local _ .vmem, ⟨0, _⟩ => ⟨S1x32x512, .f32⟩
  | .local _ .vmem, ⟨1, _⟩ => ⟨S1x32x512, .f32⟩
  | .local _ .vmem, ⟨2, _⟩ => ⟨S1x65x512, .f32⟩
  | .local _ .vmem, ⟨3, _⟩ => ⟨S1x65x512, .f32⟩
  | .local _ .vmem, ⟨4, _⟩ => ⟨S1024x512, .bf16⟩
  | .local _ .vmem, ⟨5, _⟩ => ⟨S1024x512, .bf16⟩
  | .local _ .vmem, ⟨6, _⟩ => ⟨S1x32x65x1024, .f32⟩
  | .local _ .vmem, ⟨7, _⟩ => ⟨S1x32x65x1024, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x65x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x65x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  slices_S1024x1024_S1024x512_0_0 : S1024x1024.Slices ![0, 0] S1024x512
  bitsLt_bf16_f32 : FTy.bits .bf16 < FTy.bits .f32
  slices_S1024x1024_S1024x512_0_512 : S1024x1024.Slices ![0, 512] S1024x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  inb_S1x65x512_S1x65x512_0_0_0 : ∀ a, (![0, 0, 0] : Fin 3 → Nat) a + S1x65x512.size a ≤ S1x65x512.size a
  h_S1x65x512 : 0 < S1x65x512.numel
  shapeCasts_S1x65x512_S65x512 : S1x65x512.ShapeCasts S65x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S32x1024_S32x1x1024 : S32x1024.ShapeCasts S32x1x1024
  shapeCasts_S65x1024_S1x65x1024 : S65x1024.ShapeCasts S1x65x1024
  broadcasts_S32x1x1024_S32x65x1024 : S32x1x1024.Broadcasts S32x65x1024
  broadcasts_S1x65x1024_S32x65x1024 : S1x65x1024.Broadcasts S32x65x1024
  inb_S1x32x65x1024_S1x32x65x1024_0_0_0_0 : ∀ a, (![0, 0, 0, 0] : Fin 4 → Nat) a + S1x32x65x1024.size a ≤ S1x32x65x1024.size a
  h_S1x32x65x1024 : 0 < S1x32x65x1024.numel
  shapeCasts_S1x32x65x1024_S32x65x1024 : S1x32x65x1024.ShapeCasts S32x65x1024
  shapeCasts_S32x65x1024_S1x32x65x1024 : S32x65x1024.ShapeCasts S1x32x65x1024
  dot_S32x512_S1024x512_S32x1024_1_1_0_0_n_n_wf : DotDims.WF S32x512 S1024x512 S32x1024 [1] [1] [0] [0] [] []
  dot_S65x512_S1024x512_S65x1024_1_1_0_0_n_n_wf : DotDims.WF S65x512 S1024x512 S65x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S4x256x512.size a
  hwx0_0 : ∀ i : grid0.Coords, EltTy.bits .f32 = 32 ∨ (Rect.block (s := S4x256x512) S1x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x65x512.size a ≤ S4x65x512.size a
  hwx0_1 : ∀ i : grid0.Coords, EltTy.bits .f32 = 32 ∨ (Rect.block (s := S4x65x512) S1x65x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .bf16 = 32 ∨ (Rect.block (s := S1024x512) S1024x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .bf16 = 32 ∨ (Rect.block (s := S1024x512) S1024x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x65x1024.size a ≤ S4x256x65x1024.size a
  hwx0_4 : ∀ i : grid0.Coords, EltTy.bits .f32 = 32 ∨ (Rect.block (s := S4x256x65x1024) S1x32x65x1024.size (cc0_transform_4 i) (hinb0_4 i)).WholeWords (EltTy.packing .f32)

variable [Facts₀]

def dot_S32x512_S1024x512_S32x1024_1_1_0_0_n_n : DotDims S32x512 S1024x512 S32x1024 where
  lhsContracting := [1]
  rhsContracting := [1]
  lhsNonContracting := [0]
  rhsNonContracting := [0]
  lhsBatch := []
  rhsBatch := []
  wf := dot_S32x512_S1024x512_S32x1024_1_1_0_0_n_n_wf
def dot_S65x512_S1024x512_S65x1024_1_1_0_0_n_n : DotDims S65x512 S1024x512 S65x1024 where
  lhsContracting := [1]
  rhsContracting := [1]
  lhsNonContracting := [0]
  rhsNonContracting := [0]
  lhsBatch := []
  rhsBatch := []
  wf := dot_S65x512_S1024x512_S65x1024_1_1_0_0_n_n_wf

abbrev win0_0 : Pipeline.Window sig grid0 :=
  Pipeline.Window.ofSpec (Memref.whole main_arg0) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x65x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x32x65x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x256x512 : Shape := ⟨3, ![4, 256, 512]⟩
abbrev S4x65x512 : Shape := ⟨3, ![4, 65, 512]⟩
abbrev S1024x1024 : Shape := ⟨2, ![1024, 1024]⟩
abbrev S_ : Shape := ⟨0, ![]⟩
abbrev S1024x512 : Shape := ⟨2, ![1024, 512]⟩
abbrev S4x256x1024 : Shape := ⟨3, ![4, 256, 1024]⟩
abbrev S4x65x1024 : Shape := ⟨3, ![4, 65, 1024]⟩
abbrev S4x256x1x1024 : Shape := ⟨4, ![4, 256, 1, 1024]⟩
abbrev S4x1x65x1024 : Shape := ⟨4, ![4, 1, 65, 1024]⟩
abbrev S4x256x65x1024 : Shape := ⟨4, ![4, 256, 65, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x65x512, .f32⟩
  | .hbm, ⟨2, _⟩ => ⟨S1024x1024, .f32⟩
  | .hbm, ⟨3, _⟩ => ⟨S4x256x512, .f32⟩
  | .hbm, ⟨4, _⟩ => ⟨S4x256x512, .f32⟩
  | .hbm, ⟨5, _⟩ => ⟨S_, .f32⟩
  | .hbm, ⟨6, _⟩ => ⟨S4x256x512, .f32⟩
  | .hbm, ⟨7, _⟩ => ⟨S4x256x512, .f32⟩
  | .hbm, ⟨8, _⟩ => ⟨S4x256x512, .f32⟩
  | .hbm, ⟨9, _⟩ => ⟨S_, .f32⟩
  | .hbm, ⟨10, _⟩ => ⟨S4x256x512, .f32⟩
  | .hbm, ⟨11, _⟩ => ⟨S4x256x512, .f32⟩
  | .hbm, ⟨12, _⟩ => ⟨S4x256x512, .f32⟩
  | .hbm, ⟨13, _⟩ => ⟨S_, .f32⟩
  | .hbm, ⟨14, _⟩ => ⟨S4x256x512, .f32⟩
  | .hbm, ⟨15, _⟩ => ⟨S4x256x512, .f32⟩
  | .hbm, ⟨16, _⟩ => ⟨S_, .f32⟩
  | .hbm, ⟨17, _⟩ => ⟨S4x256x512, .f32⟩
  | .hbm, ⟨18, _⟩ => ⟨S4x256x512, .f32⟩
  | .hbm, ⟨19, _⟩ => ⟨S4x256x512, .f32⟩
  | .hbm, ⟨20, _⟩ => ⟨S4x65x512, .f32⟩
  | .hbm, ⟨21, _⟩ => ⟨S4x65x512, .f32⟩
  | .hbm, ⟨22, _⟩ => ⟨S_, .f32⟩
  | .hbm, ⟨23, _⟩ => ⟨S4x65x512, .f32⟩
  | .hbm, ⟨24, _⟩ => ⟨S4x65x512, .f32⟩
  | .hbm, ⟨25, _⟩ => ⟨S4x65x512, .f32⟩
  | .hbm, ⟨26, _⟩ => ⟨S_, .f32⟩
  | .hbm, ⟨27, _⟩ => ⟨S4x65x512, .f32⟩
  | .hbm, ⟨28, _⟩ => ⟨S4x65x512, .f32⟩
  | .hbm, ⟨29, _⟩ => ⟨S4x65x512, .f32⟩
  | .hbm, ⟨30, _⟩ => ⟨S_, .f32⟩
  | .hbm, ⟨31, _⟩ => ⟨S4x65x512, .f32⟩
  | .hbm, ⟨32, _⟩ => ⟨S4x65x512, .f32⟩
  | .hbm, ⟨33, _⟩ => ⟨S_, .f32⟩
  | .hbm, ⟨34, _⟩ => ⟨S4x65x512, .f32⟩
  | .hbm, ⟨35, _⟩ => ⟨S4x65x512, .f32⟩
  | .hbm, ⟨36, _⟩ => ⟨S4x65x512, .f32⟩
  | .hbm, ⟨37, _⟩ => ⟨S1024x512, .f32⟩
  | .hbm, ⟨38, _⟩ => ⟨S4x256x1024, .f32⟩
  | .hbm, ⟨39, _⟩ => ⟨S1024x512, .f32⟩
  | .hbm, ⟨40, _⟩ => ⟨S4x65x1024, .f32⟩
  | .hbm, ⟨41, _⟩ => ⟨S4x256x1x1024, .f32⟩
  | .hbm, ⟨42, _⟩ => ⟨S4x1x65x1024, .f32⟩
  | .hbm, ⟨43, _⟩ => ⟨S4x256x65x1024, .f32⟩
  | .hbm, ⟨44, _⟩ => ⟨S4x256x65x1024, .f32⟩
  | .hbm, ⟨45, _⟩ => ⟨S4x256x65x1024, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]

class Facts₀ : Prop where
  bcast_S_S4x256x512 : S_.BroadcastsInDim S4x256x512 (![] : Fin 0 → Fin S4x256x512.rank)
  bcast_S_S4x65x512 : S_.BroadcastsInDim S4x65x512 (![] : Fin 0 → Fin S4x65x512.rank)
  slices_S1024x1024_S1024x512_0_0 : S1024x1024.Slices ![0, 0] S1024x512
  slices_S1024x1024_S1024x512_0_512 : S1024x1024.Slices ![0, 512] S1024x512
  bcast_S4x256x1024_S4x256x1x1024_0_1_3 : S4x256x1024.BroadcastsInDim S4x256x1x1024 (![0, 1, 3] : Fin 3 → Fin S4x256x1x1024.rank)
  bcast_S4x65x1024_S4x1x65x1024_0_2_3 : S4x65x1024.BroadcastsInDim S4x1x65x1024 (![0, 2, 3] : Fin 3 → Fin S4x1x65x1024.rank)
  bcast_S4x256x1x1024_S4x256x65x1024_0_1_2_3 : S4x256x1x1024.BroadcastsInDim S4x256x65x1024 (![0, 1, 2, 3] : Fin 4 → Fin S4x256x65x1024.rank)
  bcast_S4x1x65x1024_S4x256x65x1024_0_1_2_3 : S4x1x65x1024.BroadcastsInDim S4x256x65x1024 (![0, 1, 2, 3] : Fin 4 → Fin S4x256x65x1024.rank)
  dot_S4x256x512_S1024x512_S4x256x1024_2_1_01_0_n_n_wf : DotDims.WF S4x256x512 S1024x512 S4x256x1024 [2] [1] [0, 1] [0] [] []
  dot_S4x65x512_S1024x512_S4x65x1024_2_1_01_0_n_n_wf : DotDims.WF S4x65x512 S1024x512 S4x65x1024 [2] [1] [0, 1] [0] [] []

variable [Facts₀]

def dot_S4x256x512_S1024x512_S4x256x1024_2_1_01_0_n_n : DotDims S4x256x512 S1024x512 S4x256x1024 where
  lhsContracting := [2]
  rhsContracting := [1]
  lhsNonContracting := [0, 1]
  rhsNonContracting := [0]
  lhsBatch := []
  rhsBatch := []
  wf := dot_S4x256x512_S1024x512_S4x256x1024_2_1_01_0_n_n_wf
def dot_S4x65x512_S1024x512_S4x65x1024_2_1_01_0_n_n : DotDims S4x65x512 S1024x512 S4x65x1024 where
  lhsContracting := [2]
  rhsContracting := [1]
  lhsNonContracting := [0, 1]
  rhsNonContracting := [0]
  lhsBatch := []
  rhsBatch := []
  wf := dot_S4x65x512_S1024x512_S4x65x1024_2_1_01_0_n_n_wf

class Facts : Prop extends Facts₀ where

variable [Facts]
-- ==== Proof.JointSpec.lean ====
/-
  The function both programs compute, stated once over the extended reals.

  For an encoder array `enc` [4, 256, 512], a decoder array `dec` [4, 65, 512] and a weight matrix `w` [1024, 1024] the
  joint network's output at (b, t, u, v) is

      ∑ k < 512, gelu (enc b t k) · w v k   +   ∑ k < 512, gelu (dec b u k) · w v (512 + k)

  — the left half of row `v` of `w` projects the activated encoder row, the right half the activated decoder row, and the
  two projections are added over the (t, u) grid. `gelu` is the tanh approximation
  x · (½ · (1 + tanh (c₁ · (x + c₀ · x³)))) with the four float literals kept as their binary words: the same words occur on
  both sides, so they are never evaluated.
-/
import Idealize.ShloMosaic.PureOps.Ideal.Laws
import Idealize.ShloMosaic.Lib.ValueIdx

noncomputable section

namespace Cert.Joint

open Idealize.ShloMosaic Idealize.ShloMosaic.ValueIdx

/-- The tanh-approximated GELU on the extended reals, the cube written `x · (x · x)`. -/
def gelu (x : EReal) : EReal :=
  x * (Ideal.ofBits .f32 0x3F000000#32 * (Ideal.ofBits .f32 0x3F800000#32 +
    Ideal.tanh (Ideal.ofBits .f32 0x3F4C422A#32 * (x + Ideal.ofBits .f32 0x3D372713#32 * (x * (x * x))))))

/-- The same function with the cube written `(x · x) · x`: multiplication of extended reals commutes, so nothing about
    finiteness is needed. -/
theorem gelu_cube_left (x : EReal) :
    x * (Ideal.ofBits .f32 0x3F000000#32 * (Ideal.ofBits .f32 0x3F800000#32 +
      Ideal.tanh (Ideal.ofBits .f32 0x3F4C422A#32 * (x + Ideal.ofBits .f32 0x3D372713#32 * ((x * x) * x))))) = gelu x := by
  unfold gelu
  rw [mul_comm (x * x) x]

/-- Column index `k` of the left half of the weight matrix. -/
abbrev lo (k : Fin 512) : Fin 1024 := ⟨k.val, by have := k.isLt; omega⟩

/-- Column index `512 + k` of the right half of the weight matrix. -/
abbrev hi (k : Fin 512) : Fin 1024 := ⟨512 + k.val, by have := k.isLt; omega⟩

/-- The encoder projection at (b, t, v): the activated encoder row against the left half of row `v` of the weights. -/
def encProj (enc : (⟨3, ![4, 256, 512]⟩ : Shape).Idx → EReal) (w : (⟨2, ![1024, 1024]⟩ : Shape).Idx → EReal)
    (b : Fin 4) (t : Fin 256) (v : Fin 1024) : EReal :=
  ∑ k : Fin 512, gelu (enc (ix3 b t k)) * w (ix2 v (lo k))

/-- The decoder projection at (b, u, v): the activated decoder row against the right half of row `v` of the weights. -/
def decProj (dec : (⟨3, ![4, 65, 512]⟩ : Shape).Idx → EReal) (w : (⟨2, ![1024, 1024]⟩ : Shape).Idx → EReal)
    (b : Fin 4) (u : Fin 65) (v : Fin 1024) : EReal :=
  ∑ k : Fin 512, gelu (dec (ix3 b u k)) * w (ix2 v (hi k))

/-- The joint output: the two projections added at every (b, t, u, v). -/
def joint (enc : (⟨3, ![4, 256, 512]⟩ : Shape).Idx → EReal) (dec : (⟨3, ![4, 65, 512]⟩ : Shape).Idx → EReal)
    (w : (⟨2, ![1024, 1024]⟩ : Shape).Idx → EReal) : (⟨4, ![4, 256, 65, 1024]⟩ : Shape).Idx → EReal :=
  fun i => encProj enc w (i 0) (i 1) (i 3) + decProj dec w (i 0) (i 2) (i 3)

/-- The joint output at an index given by its four coordinates. -/
theorem joint_ix4 (enc : (⟨3, ![4, 256, 512]⟩ : Shape).Idx → EReal) (dec : (⟨3, ![4, 65, 512]⟩ : Shape).Idx → EReal)
    (w : (⟨2, ![1024, 1024]⟩ : Shape).Idx → EReal) (b : Fin 4) (t : Fin 256) (u : Fin 65) (v : Fin 1024) :
    joint enc dec w (ix4 b t u v) = encProj enc w b t v + decProj dec w b u v := rfl

end Cert.Joint

end
-- ==== Proof.RefJoint.lean ====
/-
  The reference's result is the joint function.

  Read one operation at a time, the reference multiplies out the tanh-approximated GELU of each encoder and decoder entry (the
  cube as `(x · x) · x`), contracts the activated rows with the two halves of the weight matrix (the host's `dot_general`, at
  the ideal values a plain sum over the 512 contracted positions), and adds the two projections after broadcasting them over
  the (t, u) grid. Index by index that is `Cert.Joint.joint`: the only algebra is commuting the cube's factors.
-/
import proofs.«128143_j23338852286935_2_alg».proof.Proof.Gen.ReferenceIdeal.Read
import proofs.«128143_j23338852286935_2_alg».proof.Proof.JointSpec

noncomputable section

namespace Cert.ReferenceIdeal.RefJoint

open Cert.ReferenceIdeal Cert.ReferenceIdeal.Gen Cert.ReferenceIdeal.Read Cert.Joint
open Idealize.ShloMosaic Idealize.ShloMosaic.ValueIdx

/-- The reference's activated encoder entry is `gelu` of the entry. -/
theorem act_enc (x0 : (⟨S4x256x512, .f32⟩ : BufTy).Contents (Elt Ideal)) (j : S4x256x512.Idx) :
    val_main_v12 (F := Ideal) x0 j = gelu (x0 j) := by
  rw [val_main_v12_apply, val_main_v11_apply, val_main_v10_apply, val_main_cst_2_apply, val_main_v9_apply,
    val_main_v8_apply, val_main_cst_1_apply, val_main_v7_apply, val_main_v6_apply, val_main_v5_apply,
    val_main_cst_0_apply, val_main_v4_apply, val_main_v3_apply, val_main_v2_apply, val_main_cst_apply,
    val_main_v1_apply, val_main_v0_apply]
  exact gelu_cube_left (x0 j)

/-- The reference's activated decoder entry is `gelu` of the entry. -/
theorem act_dec (x1 : (⟨S4x65x512, .f32⟩ : BufTy).Contents (Elt Ideal)) (j : S4x65x512.Idx) :
    val_main_v25 (F := Ideal) x1 j = gelu (x1 j) := by
  rw [val_main_v25_apply, val_main_v24_apply, val_main_v23_apply, val_main_cst_6_apply, val_main_v22_apply,
    val_main_v21_apply, val_main_cst_5_apply, val_main_v20_apply, val_main_v19_apply, val_main_v18_apply,
    val_main_cst_4_apply, val_main_v17_apply, val_main_v16_apply, val_main_v15_apply, val_main_cst_3_apply,
    val_main_v14_apply, val_main_v13_apply]
  exact gelu_cube_left (x1 j)

/-- The reference's last stage, as a function of its three arguments, is the joint function: at (b, t, u, v) the encoder
    projection at (b, t, v) plus the decoder projection at (b, u, v). -/
theorem ref_is_joint (x0 : (⟨S4x256x512, .f32⟩ : BufTy).Contents (Elt Ideal)) (x1 : (⟨S4x65x512, .f32⟩ : BufTy).Contents (Elt Ideal))
    (x2 : (⟨S1024x1024, .f32⟩ : BufTy).Contents (Elt Ideal)) :
    val_main_v34 (F := Ideal) x0 x1 x2 = joint x0 x1 x2 := by
  funext i
  obtain ⟨b, t, u, v, rfl⟩ : ∃ (b : Fin 4) (t : Fin 256) (u : Fin 65) (v : Fin 1024), i = ix4 b t u v :=
    ⟨i 0, i 1, i 2, i 3, eq_ix4 i⟩
  rw [joint_ix4, val_main_v34_apply, val_main_v32_apply, val_main_v30_apply, val_main_v27_apply, val_main_v33_apply,
    val_main_v31_apply, val_main_v29_apply]
  unfold encProj decProj
  refine congrArg₂ (fun p q : EReal => p + q) (Finset.sum_congr rfl fun k _ => ?_) (Finset.sum_congr rfl fun k _ => ?_)
  · rw [act_enc, val_main_v26_apply]
    refine congrArg₂ (fun p q : EReal => p * q) (congrArg gelu (congrArg x0 ?_)) (congrArg x2 ?_)
    · funext a; apply Fin.ext
      match a with
      | ⟨0, _⟩ => rfl
      | ⟨1, _⟩ => rfl
      | ⟨2, _⟩ => rfl
    · funext a; apply Fin.ext
      match a with
      | ⟨0, _⟩ => rfl
      | ⟨1, _⟩ => rfl
  · rw [act_dec, val_main_v28_apply]
    refine congrArg₂ (fun p q : EReal => p * q) (congrArg gelu (congrArg x1 ?_)) (congrArg x2 ?_)
    · funext a; apply Fin.ext
      match a with
      | ⟨0, _⟩ => rfl
      | ⟨1, _⟩ => rfl
      | ⟨2, _⟩ => rfl
    · funext a; apply Fin.ext
      match a with
      | ⟨0, _⟩ => rfl
      | ⟨1, _⟩ => rfl

end Cert.ReferenceIdeal.RefJoint

end
-- ==== Proof.KernelProj.lean ====
/-
  The kernel body's two matrix products, read at an index.

  At one grid point the body loads a [1, 32, 512] block of encoder rows, the [1, 65, 512] block of decoder rows of the same batch
  entry, and the two [1024, 512] halves of the weights. It multiplies out the tanh-approximated GELU of each loaded entry (the cube
  as `x · (x · x)`), rounds to bf16 — the identity on extended reals — and multiplies by the transposed weights into a zero
  accumulator. So each product, at (row, v), is the sum over the contracted positions of `gelu` of the row's entry times row `v`
  of the weights.
-/
import proofs.«128143_j23338852286935_2_alg».proof.Proof.Gen.KernelIdeal.Skeleton
import proofs.«128143_j23338852286935_2_alg».proof.Proof.JointSpec
import Idealize.ShloMosaic.Lib.Pipeline.Value
import Idealize.ShloMosaic.Lib.ValueIdx
import Idealize.ShloMosaic.PureOps.Ideal.Laws

noncomputable section

namespace Cert.KernelIdeal.Proj

open Cert.KernelIdeal Cert.KernelIdeal.Gen Cert.Joint
open Idealize.ShloMosaic Idealize.ShloMosaic.ValueIdx

/-! ## The enc projection's matrix product -/

/-- The product's left operand is read at (output row, contracted position): its row axis is not contracted. -/
theorem lhs_enc_row (j : S32x1024.Idx) (q : dot_S32x512_S1024x512_S32x1024_1_1_0_0_n_n.contr.Idx) :
    (dot_S32x512_S1024x512_S32x1024_1_1_0_0_n_n.lhsIdx j q 0).val = (j 0).val := by
  unfold DotDims.lhsIdx
  rw [dif_neg (show ¬(0 : Fin S32x512.rank) ∈ dot_S32x512_S1024x512_S32x1024_1_1_0_0_n_n.lhsBatch by decide),
    dif_pos (show (0 : Fin S32x512.rank) ∈ dot_S32x512_S1024x512_S32x1024_1_1_0_0_n_n.lhsNonContracting by decide)]
  rfl

theorem lhs_enc_col (j : S32x1024.Idx) (q : dot_S32x512_S1024x512_S32x1024_1_1_0_0_n_n.contr.Idx) :
    (dot_S32x512_S1024x512_S32x1024_1_1_0_0_n_n.lhsIdx j q 1).val = (q ⟨0, by decide⟩).val :=
  dot_S32x512_S1024x512_S32x1024_1_1_0_0_n_n.lhsIdx_val_of_single rfl j q

/-- The right operand, the weights, is read at (output column, contracted position): the product is against the transpose. -/
theorem rhs_enc_row (j : S32x1024.Idx) (q : dot_S32x512_S1024x512_S32x1024_1_1_0_0_n_n.contr.Idx) :
    (dot_S32x512_S1024x512_S32x1024_1_1_0_0_n_n.rhsIdx j q 0).val = (j 1).val := by
  unfold DotDims.rhsIdx
  rw [dif_neg (show ¬(0 : Fin S1024x512.rank) ∈ dot_S32x512_S1024x512_S32x1024_1_1_0_0_n_n.rhsBatch by decide),
    dif_pos (show (0 : Fin S1024x512.rank) ∈ dot_S32x512_S1024x512_S32x1024_1_1_0_0_n_n.rhsNonContracting by decide)]
  rfl

theorem rhs_enc_col (j : S32x1024.Idx) (q : dot_S32x512_S1024x512_S32x1024_1_1_0_0_n_n.contr.Idx) :
    (dot_S32x512_S1024x512_S32x1024_1_1_0_0_n_n.rhsIdx j q 1).val = (q ⟨0, by decide⟩).val :=
  dot_S32x512_S1024x512_S32x1024_1_1_0_0_n_n.rhsIdx_val_of_single rfl j q

/-- The enc payload at (row `r`, column `v`): the sum over the 512 contracted positions of `gelu` of the loaded block's
    row `r` times row `v` of the loaded weights. The rounding to bf16 before the product is the identity on extended reals, and the
    product accumulates into zero. -/
theorem encPay_apply (P : Vec Ideal S1x32x512 .f32) (W : Vec Ideal S1024x512 .bf16) (r : Fin 32) (v : Fin 1024) :
    k0_pay2 (F := Ideal) P W (ix2 r v)
      = ∑ k : Fin 512, gelu (P (ix3 (0 : Fin 1) r k)) * (W (ix2 v k) : EReal) := by
  unfold k0_pay2
  refine (Ideal.matmul_constant_zero_apply dot_S32x512_S1024x512_S32x1024_1_1_0_0_n_n none _ _ (ix2 r v)).trans ?_
  rw [← Equiv.sum_comp (contrEquiv1 dot_S32x512_S1024x512_S32x1024_1_1_0_0_n_n 512 rfl rfl).symm]
  refine Finset.sum_congr rfl fun k _ => ?_
  have hk := contrEquiv1_symm_val dot_S32x512_S1024x512_S32x1024_1_1_0_0_n_n 512 rfl rfl k
  have el : dot_S32x512_S1024x512_S32x1024_1_1_0_0_n_n.lhsIdx (ix2 r v) ((contrEquiv1 dot_S32x512_S1024x512_S32x1024_1_1_0_0_n_n 512 rfl rfl).symm k) = ix2 r k :=
    funext fun a => Fin.ext (by
      match a with
      | ⟨0, _⟩ => exact lhs_enc_row _ _
      | ⟨1, _⟩ => exact (lhs_enc_col _ _).trans hk)
  have er : dot_S32x512_S1024x512_S32x1024_1_1_0_0_n_n.rhsIdx (ix2 r v) ((contrEquiv1 dot_S32x512_S1024x512_S32x1024_1_1_0_0_n_n 512 rfl rfl).symm k) = ix2 v k :=
    funext fun a => Fin.ext (by
      match a with
      | ⟨0, _⟩ => exact rhs_enc_row _ _
      | ⟨1, _⟩ => exact (rhs_enc_col _ _).trans hk)
  rw [el, er]
  have hrow : shapeCast S32x512 P shapeCasts_S1x32x512_S32x512 (ix2 r k) = P (ix3 (0 : Fin 1) r k) :=
    shapeCast_apply P shapeCasts_S1x32x512_S32x512 (ix2 r k) (ix3 (0 : Fin 1) r k) (by
      rw [Shape.rowMajor_val_three, Shape.rowMajor_val_two]
      show ((0 : Nat) * 32 + r.val) * 512 + k.val = r.val * 512 + k.val
      omega)
  refine congrArg₂ (fun p q : EReal => p * q) ?_ ?_
  · show gelu (shapeCast S32x512 P shapeCasts_S1x32x512_S32x512 (ix2 r k)) = _
    rw [hrow]
  · exact congrFun (shapeCast_self W shapeCasts_S1024x512_S1024x512) (ix2 v k)

/-! ## The dec projection's matrix product -/

/-- The product's left operand is read at (output row, contracted position): its row axis is not contracted. -/
theorem lhs_dec_row (j : S65x1024.Idx) (q : dot_S65x512_S1024x512_S65x1024_1_1_0_0_n_n.contr.Idx) :
    (dot_S65x512_S1024x512_S65x1024_1_1_0_0_n_n.lhsIdx j q 0).val = (j 0).val := by
  unfold DotDims.lhsIdx
  rw [dif_neg (show ¬(0 : Fin S65x512.rank) ∈ dot_S65x512_S1024x512_S65x1024_1_1_0_0_n_n.lhsBatch by decide),
    dif_pos (show (0 : Fin S65x512.rank) ∈ dot_S65x512_S1024x512_S65x1024_1_1_0_0_n_n.lhsNonContracting by decide)]
  rfl

theorem lhs_dec_col (j : S65x1024.Idx) (q : dot_S65x512_S1024x512_S65x1024_1_1_0_0_n_n.contr.Idx) :
    (dot_S65x512_S1024x512_S65x1024_1_1_0_0_n_n.lhsIdx j q 1).val = (q ⟨0, by decide⟩).val :=
  dot_S65x512_S1024x512_S65x1024_1_1_0_0_n_n.lhsIdx_val_of_single rfl j q

/-- The right operand, the weights, is read at (output column, contracted position): the product is against the transpose. -/
theorem rhs_dec_row (j : S65x1024.Idx) (q : dot_S65x512_S1024x512_S65x1024_1_1_0_0_n_n.contr.Idx) :
    (dot_S65x512_S1024x512_S65x1024_1_1_0_0_n_n.rhsIdx j q 0).val = (j 1).val := by
  unfold DotDims.rhsIdx
  rw [dif_neg (show ¬(0 : Fin S1024x512.rank) ∈ dot_S65x512_S1024x512_S65x1024_1_1_0_0_n_n.rhsBatch by decide),
    dif_pos (show (0 : Fin S1024x512.rank) ∈ dot_S65x512_S1024x512_S65x1024_1_1_0_0_n_n.rhsNonContracting by decide)]
  rfl

theorem rhs_dec_col (j : S65x1024.Idx) (q : dot_S65x512_S1024x512_S65x1024_1_1_0_0_n_n.contr.Idx) :
    (dot_S65x512_S1024x512_S65x1024_1_1_0_0_n_n.rhsIdx j q 1).val = (q ⟨0, by decide⟩).val :=
  dot_S65x512_S1024x512_S65x1024_1_1_0_0_n_n.rhsIdx_val_of_single rfl j q

/-- The dec payload at (row `r`, column `v`): the sum over the 512 contracted positions of `gelu` of the loaded block's
    row `r` times row `v` of the loaded weights. The rounding to bf16 before the product is the identity on extended reals, and the
    product accumulates into zero. -/
theorem decPay_apply (P : Vec Ideal S1x65x512 .f32) (W : Vec Ideal S1024x512 .bf16) (r : Fin 65) (v : Fin 1024) :
    k0_pay3 (F := Ideal) P W (ix2 r v)
      = ∑ k : Fin 512, gelu (P (ix3 (0 : Fin 1) r k)) * (W (ix2 v k) : EReal) := by
  unfold k0_pay3
  refine (Ideal.matmul_constant_zero_apply dot_S65x512_S1024x512_S65x1024_1_1_0_0_n_n none _ _ (ix2 r v)).trans ?_
  rw [← Equiv.sum_comp (contrEquiv1 dot_S65x512_S1024x512_S65x1024_1_1_0_0_n_n 512 rfl rfl).symm]
  refine Finset.sum_congr rfl fun k _ => ?_
  have hk := contrEquiv1_symm_val dot_S65x512_S1024x512_S65x1024_1_1_0_0_n_n 512 rfl rfl k
  have el : dot_S65x512_S1024x512_S65x1024_1_1_0_0_n_n.lhsIdx (ix2 r v) ((contrEquiv1 dot_S65x512_S1024x512_S65x1024_1_1_0_0_n_n 512 rfl rfl).symm k) = ix2 r k :=
    funext fun a => Fin.ext (by
      match a with
      | ⟨0, _⟩ => exact lhs_dec_row _ _
      | ⟨1, _⟩ => exact (lhs_dec_col _ _).trans hk)
  have er : dot_S65x512_S1024x512_S65x1024_1_1_0_0_n_n.rhsIdx (ix2 r v) ((contrEquiv1 dot_S65x512_S1024x512_S65x1024_1_1_0_0_n_n 512 rfl rfl).symm k) = ix2 v k :=
    funext fun a => Fin.ext (by
      match a with
      | ⟨0, _⟩ => exact rhs_dec_row _ _
      | ⟨1, _⟩ => exact (rhs_dec_col _ _).trans hk)
  rw [el, er]
  have hrow : shapeCast S65x512 P shapeCasts_S1x65x512_S65x512 (ix2 r k) = P (ix3 (0 : Fin 1) r k) :=
    shapeCast_apply P shapeCasts_S1x65x512_S65x512 (ix2 r k) (ix3 (0 : Fin 1) r k) (by
      rw [Shape.rowMajor_val_three, Shape.rowMajor_val_two]
      show ((0 : Nat) * 65 + r.val) * 512 + k.val = r.val * 512 + k.val
      omega)
  refine congrArg₂ (fun p q : EReal => p * q) ?_ ?_
  · show gelu (shapeCast S65x512 P shapeCasts_S1x65x512_S65x512 (ix2 r k)) = _
    rw [hrow]
  · exact congrFun (shapeCast_self W shapeCasts_S1024x512_S1024x512) (ix2 v k)

end Cert.KernelIdeal.Proj

end
-- ==== Proof.KernelBlocks.lean ====
/-
  From the kernel's blocks to its whole output array.

  The grid has 4 × 8 points. At point (b, s) the kernel writes the [1, 32, 65, 1024] block of the output whose rows are encoder rows
  32·s … 32·s + 31 of batch entry `b`; it reads the matching [1, 32, 512] block of the encoder array, the whole [1, 65, 512] decoder
  slab of batch entry `b`, and the two halves of the weight matrix, which the host sliced (columns 0 … 511 and 512 … 1023) and
  rounded to bf16 — the identity on extended reals — before the launch. Entry (r, u, v) of the block is the encoder projection of
  block row `r` plus the decoder projection of row `u`, both at weight row `v`; read where the block sits in the array this is the
  joint function at (b, 32·s + r, u, v). The 32 blocks tile the output, so the array ends holding the joint function everywhere.
-/
import proofs.«128143_j23338852286935_2_alg».proof.Proof.Gen.KernelIdeal.Value
import proofs.«128143_j23338852286935_2_alg».proof.Proof.KernelProj

noncomputable section

namespace Cert.KernelIdeal.JointValue

open Cert.KernelIdeal Cert.KernelIdeal.Gen Cert.Joint
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-! ## One entry of an output block, from the loaded blocks -/

/-- Entry (r, u, v) of the block the body leaves: the encoder block's row `r` and the decoder block's row `u`, each activated and
    projected on row `v` of its half of the weights, added. -/
theorem entry_apply (x0 : Vec Ideal S1x32x512 .f32) (x1 : Vec Ideal S1x65x512 .f32) (x2 x3 : Vec Ideal S1024x512 .bf16)
    (r : Fin 32) (u : Fin 65) (v : Fin 1024) :
    out0_4 (F := Ideal) x0 x1 x2 x3 (ix4 (0 : Fin 1) r u v)
      = (∑ k : Fin 512, gelu (x0 (ix3 (0 : Fin 1) r k)) * (x2 (ix2 v k) : EReal))
        + (∑ k : Fin 512, gelu (x1 (ix3 (0 : Fin 1) u k)) * (x3 (ix2 v k) : EReal)) := by
  unfold out0_4
  simp only [View.ld_unit_zero (S := S1x32x512) zero3, View.ld_unit_zero (S := S1x65x512) zero3,
    View.ld_unit_zero (S := S1024x512) zero2]
  rw [Value.canon4_eq]
  have e0 : Value.ix4_0 (ix4 (0 : Fin 1) r u v) = ix2 r v :=
    funext fun a => Fin.ext (by
      match a with
      | ⟨0, _⟩ => rfl
      | ⟨1, _⟩ => rfl)
  have e1 : Value.ix4_1 (ix4 (0 : Fin 1) r u v) = ix2 u v :=
    funext fun a => Fin.ext (by
      match a with
      | ⟨0, _⟩ => rfl
      | ⟨1, _⟩ => rfl)
  show (k0_pay2 (F := Ideal) x0 x2 (Value.ix4_0 (ix4 (0 : Fin 1) r u v)) : EReal)
      + k0_pay3 (F := Ideal) x1 x3 (Value.ix4_1 (ix4 (0 : Fin 1) r u v)) = _
  rw [e0, e1, Proj.encPay_apply, Proj.decPay_apply]

/-! ## Where each window's block sits -/

/-- The printed index maps over the 32 grid points: the encoder window moves with the output window on the batch and row-block
    axes, the decoder window on the batch axis only, the weight windows not at all; the output's batch index is below 4 and its
    row-block index below 8. -/
theorem idx_facts : ∀ t : Fin cfg0.N,
    win0_0.index t (0 : Fin 3) = win0_4.index t (0 : Fin 4) ∧ win0_0.index t (1 : Fin 3) = win0_4.index t (1 : Fin 4)
    ∧ win0_0.index t (2 : Fin 3) = 0
    ∧ win0_1.index t (0 : Fin 3) = win0_4.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (2 : Fin 4) = 0 ∧ win0_4.index t (3 : Fin 4) = 0
    ∧ win0_4.index t (0 : Fin 4) ≤ 3 ∧ win0_4.index t (1 : Fin 4) ≤ 7 :=
  (by decide +kernel : ∀ t : Fin grid0.N, _)

/-- Every (batch entry, row block) pair is some grid point's. -/
theorem idx_onto : ∀ (q0 : Fin 4) (q1 : Fin 8), ∃ t : Fin cfg0.N, win0_4.index t = ![q0.val, q1.val, 0, 0] :=
  (by decide +kernel : ∀ (q0 : Fin 4) (q1 : Fin 8), ∃ t : Fin grid0.N, win0_4.index t = ![q0.val, q1.val, 0, 0])

/-! ## The arrays the region finds -/

/-- The left weight half as the region finds it: columns 0 … 511 of the weight matrix. -/
theorem weights_lo (c : Dev nD) (v : Fin 1024) (k : Fin 512) :
    (V m c main_v1 (ix2 v k) : EReal) = m ((c : Thread nD τ).loc main_arg2) (ix2 v (lo k)) := by
  have e : (V m c main_v1 : S1024x512.Idx → EReal)
      = truncf (F := Ideal) .bf16 (extractStridedSlice S1024x512 ![0, 0] (m ((c : Thread nD τ).loc main_arg2)) slices_S1024x1024_S1024x512_0_0) bitsLt_bf16_f32 := by
    dsimp only [V, hostOps0]; after_results
  rw [e]
  show extractStridedSlice S1024x512 ![0, 0] (m ((c : Thread nD τ).loc main_arg2)) slices_S1024x1024_S1024x512_0_0 (ix2 v k) = _
  exact extractStridedSlice_apply ![0, 0] _ slices_S1024x1024_S1024x512_0_0 (ix2 v k) (ix2 v (lo k)) (fun a => match a with
    | ⟨0, _⟩ => by show v.val = 0 + v.val; omega
    | ⟨1, _⟩ => by show k.val = 0 + k.val; omega)

/-- The right weight half as the region finds it: columns 512 … 1023 of the weight matrix. -/
theorem weights_hi (c : Dev nD) (v : Fin 1024) (k : Fin 512) :
    (V m c main_v3 (ix2 v k) : EReal) = m ((c : Thread nD τ).loc main_arg2) (ix2 v (hi k)) := by
  have e : (V m c main_v3 : S1024x512.Idx → EReal)
      = truncf (F := Ideal) .bf16 (extractStridedSlice S1024x512 ![0, 512] (m ((c : Thread nD τ).loc main_arg2)) slices_S1024x1024_S1024x512_0_512) bitsLt_bf16_f32 := by
    dsimp only [V, hostOps0]; after_results
  rw [e]
  show extractStridedSlice S1024x512 ![0, 512] (m ((c : Thread nD τ).loc main_arg2)) slices_S1024x1024_S1024x512_0_512 (ix2 v k) = _
  exact extractStridedSlice_apply ![0, 512] _ slices_S1024x1024_S1024x512_0_512 (ix2 v k) (ix2 v (hi k)) (fun a => match a with
    | ⟨0, _⟩ => by show v.val = 0 + v.val; omega
    | ⟨1, _⟩ => by show 512 + k.val = 512 + k.val; omega)

/-! ## The four input blocks at a grid point, read off the argument arrays -/

/-- Row `r` of the encoder block at point `t` is encoder row `32·s + r` of batch entry `b`, (b, s) the output block's indices. -/
theorem enc_block (c : Dev nD) (t : Fin cfg0.N) (r : Fin 32) (k : Fin 512) (b : Fin 4) (row : Fin 256)
    (hb : b.val = win0_4.index t (0 : Fin 4)) (hrow : row.val = win0_4.index t (1 : Fin 4) * 32 + r.val) :
    (iblk m c 0 t (ix3 (0 : Fin 1) r k) : EReal) = m ((c : Thread nD τ).loc main_arg0) (ix3 b row k) := by
  obtain ⟨e00, e01, e02, -⟩ := idx_facts t
  show V m c main_arg0 (((cfg0.win 0).blk t).view.emb (ix3 (0 : Fin 1) r k)) = _
  refine (congrFun (V_main_arg0 m c) _).trans (congrArg (m ((c : Thread nD τ).loc main_arg0)) (funext fun a => Fin.ext ?_))
  match a with
  | ⟨0, _⟩ => show win0_0.index t (0 : Fin 3) * 1 + 1 * (0 : Nat) = b.val; omega
  | ⟨1, _⟩ => show win0_0.index t (1 : Fin 3) * 32 + 1 * r.val = row.val; omega
  | ⟨2, _⟩ => show win0_0.index t (2 : Fin 3) * 512 + 1 * k.val = k.val; omega

/-- Row `u` of the decoder block at point `t` is decoder row `u` of batch entry `b`. -/
theorem dec_block (c : Dev nD) (t : Fin cfg0.N) (u : Fin 65) (k : Fin 512) (b : Fin 4)
    (hb : b.val = win0_4.index t (0 : Fin 4)) :
    (iblk m c 1 t (ix3 (0 : Fin 1) u k) : EReal) = m ((c : Thread nD τ).loc main_arg1) (ix3 b u k) := by
  obtain ⟨-, -, -, e10, e11, e12, -⟩ := idx_facts t
  show V m c main_arg1 (((cfg0.win 1).blk t).view.emb (ix3 (0 : Fin 1) u k)) = _
  refine (congrFun (V_main_arg1 m c) _).trans (congrArg (m ((c : Thread nD τ).loc main_arg1)) (funext fun a => Fin.ext ?_))
  match a with
  | ⟨0, _⟩ => show win0_1.index t (0 : Fin 3) * 1 + 1 * (0 : Nat) = b.val; omega
  | ⟨1, _⟩ => show win0_1.index t (1 : Fin 3) * 65 + 1 * u.val = u.val; omega
  | ⟨2, _⟩ => show win0_1.index t (2 : Fin 3) * 512 + 1 * k.val = k.val; omega

/-- The left weight block at every point is the whole left half. -/
theorem wlo_block (c : Dev nD) (t : Fin cfg0.N) (v : Fin 1024) (k : Fin 512) :
    (iblk m c 2 t (ix2 v k) : EReal) = m ((c : Thread nD τ).loc main_arg2) (ix2 v (lo k)) := by
  obtain ⟨-, -, -, -, -, -, e20, e21, -⟩ := idx_facts t
  show V m c main_v1 (((cfg0.win 2).blk t).view.emb (ix2 v k)) = _
  have hi : ((cfg0.win 2).blk t).view.emb (ix2 v k) = ix2 v k := funext fun a => Fin.ext (by
    match a with
    | ⟨0, _⟩ => show win0_2.index t (0 : Fin 2) * 1024 + 1 * v.val = v.val; omega
    | ⟨1, _⟩ => show win0_2.index t (1 : Fin 2) * 512 + 1 * k.val = k.val; omega)
  rw [hi]
  exact weights_lo m c v k

/-- The right weight block at every point is the whole right half. -/
theorem whi_block (c : Dev nD) (t : Fin cfg0.N) (v : Fin 1024) (k : Fin 512) :
    (iblk m c 3 t (ix2 v k) : EReal) = m ((c : Thread nD τ).loc main_arg2) (ix2 v (hi k)) := by
  obtain ⟨-, -, -, -, -, -, -, -, e30, e31, -⟩ := idx_facts t
  show V m c main_v3 (((cfg0.win 3).blk t).view.emb (ix2 v k)) = _
  have hi : ((cfg0.win 3).blk t).view.emb (ix2 v k) = ix2 v k := funext fun a => Fin.ext (by
    match a with
    | ⟨0, _⟩ => show win0_3.index t (0 : Fin 2) * 1024 + 1 * v.val = v.val; omega
    | ⟨1, _⟩ => show win0_3.index t (1 : Fin 2) * 512 + 1 * k.val = k.val; omega)
  rw [hi]
  exact weights_hi m c v k

/-! ## What a point writes back, the cover, and the whole array -/

/-- What point `t` writes back is block `t` of the joint function of the argument arrays. -/
theorem flushed_eq (c : Dev nD) (t : Fin cfg0.N) :
    (dats m 0 c).flushed 4 t = ((cfg0.win 4).blk t).view.read (Elt Ideal)
      (joint (m ((c : Thread nD τ).loc main_arg0)) (m ((c : Thread nD τ).loc main_arg1)) (m ((c : Thread nD τ).loc main_arg2))) := by
  show (cfg0.win 4).cut (grid0.coords t) ((dats m 0 c).after 4 t) = _
  rw [after0_4]
  obtain ⟨-, -, -, -, -, -, -, -, -, -, e42, e43, b40, b41⟩ := idx_facts t
  funext y
  obtain ⟨z, r, u, v, rfl⟩ : ∃ (z : Fin 1) (r : Fin 32) (u : Fin 65) (v : Fin 1024), y = ix4 z r u v :=
    ⟨y 0, y 1, y 2, y 3, eq_ix4 (n0 := 1) (n1 := 32) (n2 := 65) (n3 := 1024) y⟩
  obtain rfl : z = 0 := Subsingleton.elim _ _
  have hr : r.val < 32 := r.isLt
  let b : Fin 4 := ⟨win0_4.index t (0 : Fin 4), by omega⟩
  let row : Fin 256 := ⟨win0_4.index t (1 : Fin 4) * 32 + r.val, by omega⟩
  show out0_4 (F := Ideal) (iblk m c 0 t) (iblk m c 1 t) (iblk m c 2 t) (iblk m c 3 t) (ix4 (0 : Fin 1) r u v)
      = joint (m ((c : Thread nD τ).loc main_arg0)) (m ((c : Thread nD τ).loc main_arg1)) (m ((c : Thread nD τ).loc main_arg2)) (((cfg0.win 4).blk t).view.emb (ix4 (0 : Fin 1) r u v))
  have hi : ((cfg0.win 4).blk t).view.emb (ix4 (0 : Fin 1) r u v) = ix4 b row u v := funext fun a => Fin.ext (by
    match a with
    | ⟨0, _⟩ => show win0_4.index t (0 : Fin 4) * 1 + 1 * (0 : Nat) = win0_4.index t (0 : Fin 4); omega
    | ⟨1, _⟩ => show win0_4.index t (1 : Fin 4) * 32 + 1 * r.val = win0_4.index t (1 : Fin 4) * 32 + r.val; omega
    | ⟨2, _⟩ => show win0_4.index t (2 : Fin 4) * 65 + 1 * u.val = u.val; omega
    | ⟨3, _⟩ => show win0_4.index t (3 : Fin 4) * 1024 + 1 * v.val = v.val; omega)
  rw [hi, joint_ix4, entry_apply]
  unfold encProj decProj
  refine congrArg₂ (fun p q : EReal => p + q) (Finset.sum_congr rfl fun k _ => ?_) (Finset.sum_congr rfl fun k _ => ?_)
  · rw [enc_block m c t r k b row rfl rfl, wlo_block m c t v k]
  · rw [dec_block m c t u k b rfl, whi_block m c t v k]

/-- An index of the output is in point `t`'s block iff each coordinate is in the block's range on its axis. -/
theorem mem_blk (t : Fin cfg0.N) (i : S4x256x65x1024.Idx) :
    i ∈ ((cfg0.win 4).blk t).view.set ↔ ∀ a : Fin 4, win0_4.index t a * S1x32x65x1024.size a ≤ (i a).val
      ∧ (i a).val < win0_4.index t a * S1x32x65x1024.size a + S1x32x65x1024.size a := by
  show i ∈ ((View.whole main_v4).slice (win0_4.rect t)).set ↔ _
  rw [View.set_slice_whole, Rect.mem_set_unit]
  exact Iff.rfl

/-- The blocks tile the output: index (b, row, u, v) is in the block of the point with batch index `b` and row-block index
    `row / 32`. -/
theorem covered (i : S4x256x65x1024.Idx) :
    ∃ t : Fin cfg0.N, (cfg0.win 4).flush t = true ∧ i ∈ ((cfg0.win 4).blk t).view.set := by
  have hi0 : (i 0).val < 4 := (i 0).isLt
  have hi1 : (i 1).val < 256 := (i 1).isLt
  have hi2 : (i 2).val < 65 := (i 2).isLt
  have hi3 : (i 3).val < 1024 := (i 3).isLt
  obtain ⟨t, ht⟩ := idx_onto ⟨(i 0).val, hi0⟩ ⟨(i 1).val / 32, by omega⟩
  have q0 : win0_4.index t (0 : Fin 4) = (i 0).val := congrFun ht 0
  have q1 : win0_4.index t (1 : Fin 4) = (i 1).val / 32 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 32 ≤ (i 1).val ∧ (i 1).val < win0_4.index t (1 : Fin 4) * 32 + 32; omega
  | ⟨2, _⟩ => show win0_4.index t (2 : Fin 4) * 65 ≤ (i 2).val ∧ (i 2).val < win0_4.index t (2 : Fin 4) * 65 + 65; omega
  | ⟨3, _⟩ => show win0_4.index t (3 : Fin 4) * 1024 ≤ (i 3).val ∧ (i 3).val < win0_4.index t (3 : Fin 4) * 1024 + 1024; omega

/-- The output array after the run is the joint function of the argument arrays. -/
theorem final (c : Dev nD) :
    (dats m 0 c).arrAt 4 cfg0.N = joint (m ((c : Thread nD τ).loc main_arg0)) (m ((c : Thread nD τ).loc main_arg1)) (m ((c : Thread nD τ).loc main_arg2)) :=
  (dats m 0 c).arrAt_eq_of_cover 4 _ (fun t _ => flushed_eq m c t) covered

/-- The kernel's run: every weakly fair execution ends with the output array at the joint function of the argument arrays, which
    are unchanged. -/
theorem run : θ_run defs (onTc (τ := τ) (main (F := Ideal))) ⟨m, fun _ => 0, ρ⟩ fun r => ∀ c : Dev nD,
      r.2.mem ((c : Thread nD τ).loc main_v4) = joint (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.JointValue

end
-- ==== Proof.lean ====
/-
  The joint network's fused kernel against its reference, at the ideal values.

  Both programs compute, at (b, t, u, v),

      ∑ k < 512, gelu (enc b t k) · w v k   +   ∑ k < 512, gelu (dec b u k) · w v (512 + k)

  with `gelu` the tanh approximation (`Cert.Joint.joint`). The kernel does it block by block: at grid point (b, s) it activates a
  32-row block of the encoder and the 65 decoder rows of batch entry `b`, rounds them and the pre-sliced weight halves to bf16 —
  the identity on extended reals —, multiplies on the matrix unit into a zero accumulator and adds the two products over the
  (row, u) grid of the block; its 32 blocks tile the output (`Cert.KernelIdeal.JointValue.run`). The reference does it on whole
  arrays with the host's contraction (`Cert.ReferenceIdeal.RefJoint.ref_is_joint`). The two differ only in how the cube inside
  `gelu` is bracketed, and multiplication of extended reals commutes: the precondition is never opened.

  The three frames are the generated runs (the reference's with its result dropped); the kernel's idealization rewrote nothing, so
  there is nothing to preserve.
-/
import proofs.«128143_j23338852286935_2_alg».proof.Defs
import proofs.«128143_j23338852286935_2_alg».proof.Proof.Gen.Kernel
import proofs.«128143_j23338852286935_2_alg».proof.Proof.Gen.Kernel.Skeleton
import proofs.«128143_j23338852286935_2_alg».proof.Proof.Gen.Kernel.Launch
import proofs.«128143_j23338852286935_2_alg».proof.Proof.Gen.Kernel.Points
import proofs.«128143_j23338852286935_2_alg».proof.Proof.Gen.Kernel.Frame
import proofs.«128143_j23338852286935_2_alg».proof.Proof.Gen.KernelIdeal
import proofs.«128143_j23338852286935_2_alg».proof.Proof.Gen.KernelIdeal.Skeleton
import proofs.«128143_j23338852286935_2_alg».proof.Proof.Gen.KernelIdeal.Launch
import proofs.«128143_j23338852286935_2_alg».proof.Proof.Gen.KernelIdeal.Points
import proofs.«128143_j23338852286935_2_alg».proof.Proof.Gen.KernelIdeal.Frame
import proofs.«128143_j23338852286935_2_alg».proof.Proof.Gen.ReferenceIdeal
import proofs.«128143_j23338852286935_2_alg».proof.Proof.Gen.Pre_finite_inputs
import proofs.«128143_j23338852286935_2_alg».proof.Proof.Gen.KernelIdeal.Value
import proofs.«128143_j23338852286935_2_alg».proof.Proof.Gen.ReferenceIdeal.Run
import proofs.«128143_j23338852286935_2_alg».proof.Proof.Gen.ReferenceIdeal.Read
import proofs.«128143_j23338852286935_2_alg».proof.Proof.JointSpec
import proofs.«128143_j23338852286935_2_alg».proof.Proof.RefJoint
import proofs.«128143_j23338852286935_2_alg».proof.Proof.KernelBlocks
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the three arguments both programs end with the joint function of those arguments in their result
    arrays: the kernel by its blocks, the reference by its last stage. -/
theorem algebraic : Cert.algebraic_KernelIdeal_ReferenceIdeal := by
  intro m ρ m' ρ' _ hagree
  refine ⟨fun c => Cert.Joint.joint (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.JointValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v34_eq, Cert.ReferenceIdeal.RefJoint.ref_is_joint,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
